-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : IVec S16384x1024 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_c_0 : IVec S_ 32 := constantI S_ 32 0#32
  let main_v4 : IVec S16384x1024 32 := broadcastInDim S16384x1024 ![] bcast_S_S16384x1024 main_c_0
  let main_v5 : IVec S16384x1024 1 := cmpi .sge main_arg1 main_v4
  let main_c_1 : IVec S_ 32 := constantI S_ 32 1#32
  let main_v6 : IVec S16384x1024 32 := broadcastInDim S16384x1024 ![] bcast_S_S16384x1024 main_c_1
  let main_v7 : IVec S16384x1024 1 := cmpi .sle main_arg1 main_v6
  let main_v8 : IVec S16384x1024 1 := andi main_v5 main_v7
  let main_c_2 : IVec S_ 1 := constantI S_ 1 1#1
  let main_v9 : IVec S_ 1 := (fun x v => Host.reduce IntOp.andi x v reducesTo_S16384x1024_S_d0_1 h_S_) main_v8 main_c_2
  let main_v10 : IVec S_ 1 := andi main_v3 main_v9
  main_v10
-- ==== Kernel.lean ====
abbrev S16384x1024 : Shape := ⟨2, ![16384, 1024]⟩
abbrev S16384 : Shape := ⟨1, ![16384]⟩
abbrev S2048x1024 : Shape := ⟨2, ![2048, 1024]⟩
abbrev S2048 : Shape := ⟨1, ![2048]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .i32⟩
  | .hbm, ⟨2, _⟩ => ⟨S16384, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .i32⟩
  | .local _ .vmem, ⟨3, _⟩ => ⟨S2048x1024, .i32⟩
  | .local _ .vmem, ⟨4, _⟩ => ⟨S2048, .f32⟩
  | .local _ .vmem, ⟨5, _⟩ => ⟨S2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  inb_S2048_S2048_0 : ∀ a, (![0] : Fin 1 → Nat) a + S2048.size a ≤ S2048.size a
  h_S2048 : 0 < S2048.numel
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .i32 = 32 ∨ (Rect.block (s := S16384x1024) S2048x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S16384.size a
  hwx0_2 : ∀ i : grid0.Coords, EltTy.bits .f32 = 32 ∨ (Rect.block (s := S16384) S2048.size (cc0_transform_2 i) (hinb0_2 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S_ : Shape := ⟨0, ![]⟩
abbrev S16384 : Shape := ⟨1, ![16384]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .i32⟩
  | .hbm, ⟨2, _⟩ => ⟨S16384x1024, .f32⟩
  | .hbm, ⟨3, _⟩ => ⟨S_, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S_, .f32⟩
  | .hbm, ⟨9, _⟩ => ⟨S16384, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384, .f32⟩
  | .hbm, ⟨20, _⟩ => ⟨S16384, .f32⟩
  | .hbm, ⟨21, _⟩ => ⟨S16384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S16384x1024 : S_.BroadcastsInDim S16384x1024 (![] : Fin 0 → Fin S16384x1024.rank)
  reducesTo_S16384x1024_S16384_d1 : S16384x1024.ReducesTo [1] S16384
  h_S_ : 0 < S_.numel
  reducesTo_S16384_S_d0 : S16384.ReducesTo [0] S_

variable [Facts₀]

class Facts : Prop extends Facts₀ where

variable [Facts]
-- ==== Proof.Domain.lean ====
/-
  The precondition makes every label binary.

  The precondition is the conjunction of two whole-array tests: every score finite, and every label word `w` with
  `0 ≤ w` and `w ≤ 1` as signed integers. An `and`-reduction over the whole array that comes out 1 had a 1 at every
  entry, and the two signed comparisons of a word against the words 0 and 1 leave the integers 0 and 1.
  (The finiteness of the scores is not used anywhere in this certificate: the two arrangements agree on every
  extended real score once the labels are binary.)
-/
import proofs.«167753_j24197845745967_2_alg».proof.Pre_finite_inputs
import proofs.«167753_j24197845745967_2_alg».proof.Proof.Gen.Pre_finite_inputs
import Idealize.ShloMosaic.Lib.ReduceAll
import Idealize.ShloMosaic.Lib.Affine
import Idealize.ShloMosaic.Lib.ValueIdx

noncomputable section

namespace Cert.Bpmll.Domain

open Idealize.ShloMosaic Cert.Pre_finite_inputs

instance : Subsingleton S_.Idx := ⟨fun a b => funext fun d => d.elim0⟩

/-- A word between the words 0 and 1, signed, denotes the integer 0 or 1. -/
theorem word_binary (w : BitVec 32) (h0 : IntOp.cmpi .sge w (0#32) = 1#1) (h1 : IntOp.cmpi .sle w (1#32) = 1#1) :
    w.toInt = 0 ∨ w.toInt = 1 := by
  rw [IntOp.cmpi_sge] at h0
  rw [IntOp.cmpi_sle] at h1
  have z : (0#32 : BitVec 32).toInt = 0 := by decide
  have o : (1#32 : BitVec 32).toInt = 1 := by decide
  omega

/-- Under the precondition every label word denotes 0 or 1. -/
theorem labels_binary {F : FTy → Type} [FloatOps F] (a0 : FVec F S16384x1024 .f32) (a1 : IVec S16384x1024 32)
    (h : fn (F := F) a0 a1 = fun _ => 1#1) (i : S16384x1024.Idx) : (a1 i).toInt = 0 ∨ (a1 i).toInt = 1 := by
  have e := congrFun h ValueIdx.ix0
  dsimp only [fn] at e
  obtain ⟨-, e2⟩ := IntOp.andi_eq_one.1 e
  have e3 := Host.reduce_andi_all _ _ _ _ _ e2 i
  obtain ⟨h0, h1⟩ := IntOp.andi_eq_one.1 e3
  exact word_binary (a1 i) h0 h1

end Cert.Bpmll.Domain

end
-- ==== Proof.RowLaw.lean ====
/-
  The algebra of one row, on the extended reals.

  For a row of scores `c k` and binary labels `y k ∈ {0, 1}` (k < 1024) the loss of the row is
  `(∑ y·exp(-c)) · (∑ (1-y)·exp(c)) / ((∑ y) · (∑ (1-y)))`. A one-exponential arrangement computes
  `e k = exp (c k · (1 - 2·y k))` once and masks it by `y` and by `1 - y`: where `y = 1` the exponent is
  `c · (-1) = -c`, where `y = 0` it is `c · 1 = c`, and the term the mask kills is `0 · e = 0` whatever `e` is
  (on the extended reals `0 · x = 0` for every `x`, the infinities included, so no finiteness of `c` is used).
  The count of the complement is `∑ (1 - y) = 1024 - ∑ y`, a statement about finitely many reals.
-/
import Idealize.ShloMosaic.PureOps.Ideal
import Idealize.ShloMosaic.PureOps.Ideal.Laws

noncomputable section

namespace Cert.Bpmll

open Idealize.ShloMosaic

/-- The coercion of the reals into the extended reals commutes with finite sums. -/
theorem coe_sum {ι : Type} (s : Finset ι) (a : ι → ℝ) : ((∑ k ∈ s, a k : ℝ) : EReal) = ∑ k ∈ s, (a k : EReal) := by
  classical
  induction s using Finset.induction_on with
  | empty => simp
  | insert x s hx ih => rw [Finset.sum_insert hx, Finset.sum_insert hx, EReal.coe_add, ih]

/-- A binary label is a real number. -/
theorem binary_real {y : EReal} (hy : y = 0 ∨ y = 1) : ∃ a : ℝ, y = (a : EReal) := by
  rcases hy with h | h
  · exact ⟨0, by rw [h, EReal.coe_zero]⟩
  · exact ⟨1, by rw [h, EReal.coe_one]⟩

/-- Counting the complement: over binary labels, `∑ (1 - y k) = n - ∑ y k`. -/
theorem sum_one_sub {n : Nat} (y : Fin n → EReal) (hy : ∀ k, y k = 0 ∨ y k = 1) :
    ∑ k, (1 - y k) = (n : EReal) - ∑ k, y k := by
  choose a ha using fun k => binary_real (hy k)
  have e1 : ∀ k, (1 : EReal) - y k = ((1 - a k : ℝ) : EReal) := fun k => by
    rw [ha k, EReal.coe_sub, EReal.coe_one]
  have e2 : ∀ k, y k = (a k : EReal) := ha
  rw [Finset.sum_congr rfl fun k _ => e1 k, Finset.sum_congr rfl fun k _ => e2 k, ← coe_sum, ← coe_sum,
    Finset.sum_sub_distrib, Finset.sum_const, Finset.card_univ, Fintype.card_fin, nsmul_eq_mul, mul_one,
    EReal.coe_sub, EReal.coe_natCast]

/-- Where the label is 1 the exponent `c · (1 - 2·1)` is `-c`; where it is 0 the product is 0 on both sides. -/
theorem pos_elem (c y : EReal) (hy : y = 0 ∨ y = 1) :
    y * Ideal.exp (c * (1 - 2 * y)) = y * Ideal.exp (-c) := by
  rcases hy with rfl | rfl
  · rw [zero_mul, zero_mul]
  · have h : (1 : EReal) - 2 * 1 = -1 := by
      rw [mul_one]
      show ((1 : ℝ) : EReal) - ((2 : ℝ) : EReal) = -((1 : ℝ) : EReal)
      rw [← EReal.coe_sub, ← EReal.coe_neg]; norm_num
    rw [h, mul_neg, mul_one]

/-- Where the label is 0 the exponent `c · (1 - 2·0)` is `c`; where it is 1 the mask `1 - 1` is 0 on both sides. -/
theorem neg_elem (c y : EReal) (hy : y = 0 ∨ y = 1) :
    (1 - y) * Ideal.exp (c * (1 - 2 * y)) = (1 - y) * Ideal.exp c := by
  rcases hy with rfl | rfl
  · rw [mul_zero, sub_zero, mul_one]
  · have h : (1 : EReal) - 1 = 0 := by
      show ((1 : ℝ) : EReal) - ((1 : ℝ) : EReal) = ((0 : ℝ) : EReal)
      rw [← EReal.coe_sub]; norm_num
    rw [h, zero_mul, zero_mul]

/-- The loss of one row, in the two-exponential arrangement. -/
def rowLoss (c y : Fin 1024 → EReal) : EReal :=
  Ideal.div ((∑ k, y k * Ideal.exp (-(c k))) * (∑ k, (1 - y k) * Ideal.exp (c k)))
    ((∑ k, y k) * (∑ k, (1 - y k)))

/-- The one-exponential arrangement of a row with binary labels is the row's loss. -/
theorem oneExp_row (c y : Fin 1024 → EReal) (hy : ∀ k, y k = 0 ∨ y k = 1) :
    Ideal.div ((∑ k, y k * Ideal.exp (c k * (1 - 2 * y k))) * (∑ k, (1 - y k) * Ideal.exp (c k * (1 - 2 * y k))))
      ((∑ k, y k) * (1024 - ∑ k, y k)) = rowLoss c y := by
  unfold rowLoss
  rw [sum_one_sub y hy, Finset.sum_congr rfl fun k _ => pos_elem (c k) (y k) (hy k),
    Finset.sum_congr rfl fun k _ => neg_elem (c k) (y k) (hy k)]
  rfl

/-! ## The f32 patterns of the constants -/

theorem lit_one : Ideal.ofBits .f32 0x3F800000#32 = 1 := by
  simp [Ideal.ofBits, Ideal.ieee, -EReal.coe_mul]; norm_num

theorem lit_two : Ideal.ofBits .f32 0x40000000#32 = 2 := by
  simp [Ideal.ofBits, Ideal.ieee, -EReal.coe_mul]; norm_num; rfl

theorem lit_1024 : Ideal.ofBits .f32 0x44800000#32 = 1024 := by
  simp [Ideal.ofBits, Ideal.ieee, -EReal.coe_mul]; norm_num; rfl

end Cert.Bpmll

end
-- ==== Proof.LossSpec.lean ====
/-
  The result both programs compute, as one function of the two argument arrays.

  `lossVec c y` is the vector of the 16384 row losses: row `r` of the scores and of the labels (the label words read as
  signed integers) put through `rowLoss`. `meanTail` is what both programs do to that vector afterwards: the sum of its
  entries, from zero, divided by 16384. The two shape facts the host's sum cites are propositions, so any two
  proofs of them give the same term.
-/
import proofs.«167753_j24197845745967_2_alg».proof.Proof.RowLaw
import Idealize.ShloMosaic.Lib.ValueIdx
import Idealize.ShloMosaic.PureOps

noncomputable section

namespace Cert.Bpmll

open Idealize.ShloMosaic Idealize.ShloMosaic.ValueIdx

/-- The shape of the scores and of the labels, of the loss vector, and of the scalar result. -/
abbrev Scores : Shape := ⟨2, ![16384, 1024]⟩
abbrev Rows : Shape := ⟨1, ![16384]⟩
abbrev Scal : Shape := ⟨0, ![]⟩

/-- An integer word converted to a float is, at the ideal values, the integer it denotes read signed. -/
theorem sitofp_ideal (b : BitVec 32) : FloatOps.sitofp (F := Ideal) .f32 b = ((b.toInt : ℝ) : EReal) := rfl

/-- The label at row `r`, column `k`, as an extended real. -/
def labelAt (y : Scores.Idx → BitVec 32) (r : Fin 16384) (k : Fin 1024) : EReal :=
  (((y (ix2 r k)).toInt : ℝ) : EReal)

/-- The loss of row `r` of scores `c` under labels `y`. -/
def lossAt (c : Scores.Idx → EReal) (y : Scores.Idx → BitVec 32) (r : Fin 16384) : EReal :=
  rowLoss (fun k => c (ix2 r k)) (fun k => labelAt y r k)

/-- The vector of the row losses. -/
def lossVec (c : Scores.Idx → EReal) (y : Scores.Idx → BitVec 32) : Rows.Idx → EReal :=
  fun i => lossAt c y (i 0)

/-- The mean of a loss vector as both programs take it: the host's sum over the rows from zero, over 16384. -/
def meanTail (h : Rows.ReducesTo [0] Scal) (h0 : 0 < Scal.numel) (L : FVec Ideal Rows .f32) : FVec Ideal Scal .f32 :=
  Host.divf (F := Ideal) (Host.reduceAdd (F := Ideal) L (constant (F := Ideal) Scal .f32 0x00000000#32) h h0)
    (constant (F := Ideal) Scal .f32 0x46800000#32)

end Cert.Bpmll

end
-- ==== Proof.RefLoss.lean ====
/-
  The reference computes the row losses, and then their mean.

  Read one operation at a time, the host program's quotient (its buffer of 16384 row values) at row `i` is: the sum
  over the 1024 columns of label · exp(-score), times the sum of (1 - label) · exp(score), over the product of the sum of
  the labels and the sum of (1 - label) — each host sum starting from the zero word, which adds nothing. That is
  `lossVec` at `i`, with no condition on the labels. The program's result is the mean tail of that buffer.
-/
import proofs.«167753_j24197845745967_2_alg».proof.Proof.LossSpec
import proofs.«167753_j24197845745967_2_alg».proof.Proof.Gen.ReferenceIdeal.Read

noncomputable section

namespace Cert.Bpmll.Ref

open Idealize.ShloMosaic Idealize.ShloMosaic.ValueIdx Cert.ReferenceIdeal Cert.ReferenceIdeal.Read Cert.Bpmll

/-- The host's row quotient is the loss vector of its two arguments. -/
theorem rows_eq (x0 : (⟨S16384x1024, .f32⟩ : BufTy).Contents (Elt Ideal)) (x1 : (⟨S16384x1024, .i32⟩ : BufTy).Contents (Elt Ideal)) :
    val_main_v14 (F := Ideal) x0 x1 = lossVec x0 x1 := by
  funext i
  obtain ⟨r, rfl⟩ : ∃ r : Fin 16384, i = ix1 r := ⟨i 0, eq_ix1 i⟩
  have e3 : ∀ k, idx_main_v3 (ix1 r) k = ix2 r k := fun k =>
    funext fun a => Fin.ext (by match a with | ⟨0, _⟩ => rfl | ⟨1, _⟩ => rfl)
  have e4 : ∀ k, idx_main_v4 (ix1 r) k = ix2 r k := fun k =>
    funext fun a => Fin.ext (by match a with | ⟨0, _⟩ => rfl | ⟨1, _⟩ => rfl)
  have e8 : ∀ k, idx_main_v8 (ix1 r) k = ix2 r k := fun k =>
    funext fun a => Fin.ext (by match a with | ⟨0, _⟩ => rfl | ⟨1, _⟩ => rfl)
  have e11 : ∀ k, idx_main_v11 (ix1 r) k = ix2 r k := fun k =>
    funext fun a => Fin.ext (by match a with | ⟨0, _⟩ => rfl | ⟨1, _⟩ => rfl)
  rw [val_main_v14_apply, val_main_v12_apply, val_main_v13_apply, val_main_v8_apply, val_main_v11_apply,
    val_main_v3_apply, val_main_v4_apply]
  simp only [e3, e4, e8, e11, val_main_v7_apply, val_main_v10_apply, val_main_v2_apply, val_main_v1_apply,
    val_main_v0_apply, val_main_v6_apply, val_main_v5_apply, val_main_v9_apply, val_main_cst_apply,
    val_main_cst_0_apply, val_main_cst_1_apply, val_main_cst_2_apply, val_main_cst_3_apply,
    Ideal.ofBits_def, Ideal.hostDivf_def, Ideal.mulf_def, Ideal.subf_def, Ideal.hostUnary_exp_def,
    Ideal.hostNegf_def, Ideal.negf_def, Ideal.ofBits_zero_f32, zero_add, lit_one, sitofp_ideal]
  rfl

/-- The host program's result is the mean tail of that buffer. -/
theorem result_eq (x0 : (⟨S16384x1024, .f32⟩ : BufTy).Contents (Elt Ideal)) (x1 : (⟨S16384x1024, .i32⟩ : BufTy).Contents (Elt Ideal)) :
    val_main_v16 (F := Ideal) x0 x1
      = meanTail Cert.ReferenceIdeal.Facts₀.reducesTo_S16384_S_d0 Cert.ReferenceIdeal.Facts₀.h_S_ (lossVec x0 x1) := by
  rw [← rows_eq]
  rfl

end Cert.Bpmll.Ref

end
-- ==== Proof.BlockReads.lean ====
/-
  The input blocks of a grid point, read entry by entry.

  The grid has 8 points; point `t` fetches block row `t` (rows `2048·t … 2048·t + 2047`, all 1024 columns) of the scores
  and of the labels, and writes back block `t` of the 16384-long loss vector. Entry (q, k) of a fetched block is entry
  (2048·t + q, k) of its array.
-/
import proofs.«167753_j24197845745967_2_alg».proof.Proof.LossSpec
import proofs.«167753_j24197845745967_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Bpmll.Kernel

open Cert.KernelIdeal Cert.KernelIdeal.Gen Cert.Bpmll

variable (m : (ℓ : Loc nD τ sig) → Buf (Elt Ideal) ℓ) (ρ : Dev nD → PrngReg)

/-- The scores and the labels as the kernel's core `c` holds them at launch. -/
abbrev scores (c : Dev nD) : Scores.Idx → EReal := m ((c : Thread nD τ).loc main_arg0)
abbrev labels (c : Dev nD) : Scores.Idx → BitVec 32 := m ((c : Thread nD τ).loc main_arg1)

theorem hz1 : (![0] : Fin 1 → Nat) = fun _ => 0 := funext fun a => by fin_cases a; rfl
theorem hz2 : (![0, 0] : Fin 2 → Nat) = fun _ => 0 := funext fun a => by fin_cases a <;> rfl

/-- The printed index maps over the grid: point `t` takes block row `t`, block column 0, of both inputs, and block `t`
    of the output. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ win0_2.index t (0 : Fin 1) = t.val :=
  (by decide +kernel : ∀ t : Fin grid0.N, _)

/-- Entry (q, k) of the scores block at point `t` is entry (2048·t + q, k) of the scores. -/
theorem scoreBlock_apply (c : Dev nD) (t : Fin cfg0.N) (q : Fin 2048) (k : Fin 1024) (r : Fin 16384)
    (hr : r.val = 2048 * t.val + q.val) :
    (iblk m c 0 t : Vec Ideal S2048x1024 .f32) (ix2 q k) = scores m c (ix2 r k) := by
  obtain ⟨e0, e1, -, -, -⟩ := idx_facts t
  unfold iblk
  rw [View.read_apply]
  show V m c main_arg0 _ = m (c.tc.loc main_arg0) _
  rw [V_main_arg0]
  refine congrArg (m (c.tc.loc main_arg0)) ?_
  funext a
  apply Fin.ext
  match a with
  | ⟨0, _⟩ => show win0_0.index t 0 * 2048 + 1 * q.val = r.val; rw [e0, hr]; omega
  | ⟨1, _⟩ => show win0_0.index t 1 * 1024 + 1 * k.val = k.val; rw [e1]; omega

/-- Entry (q, k) of the labels block at point `t` is entry (2048·t + q, k) of the labels. -/
theorem labelBlock_apply (c : Dev nD) (t : Fin cfg0.N) (q : Fin 2048) (k : Fin 1024) (r : Fin 16384)
    (hr : r.val = 2048 * t.val + q.val) :
    (iblk m c 1 t : Vec Ideal S2048x1024 .i32) (ix2 q k) = labels m c (ix2 r k) := by
  obtain ⟨-, -, e0, e1, -⟩ := idx_facts t
  unfold iblk
  rw [View.read_apply]
  show V m c main_arg1 _ = m (c.tc.loc main_arg1) _
  rw [V_main_arg1]
  refine congrArg (m (c.tc.loc main_arg1)) ?_
  funext a
  apply Fin.ext
  match a with
  | ⟨0, _⟩ => show win0_1.index t 0 * 2048 + 1 * q.val = r.val; rw [e0, hr]; omega
  | ⟨1, _⟩ => show win0_1.index t 1 * 1024 + 1 * k.val = k.val; rw [e1]; omega

/-- What point `t` writes back of a staged vector `X`: if entry `q` of `X` is entry `2048·t + q` of a 16384-long
    vector `G`, for every `q`, then the written block is block `t` of `G`. -/
theorem writeBack_eq (t : Fin cfg0.N) (X : Vec Ideal S2048 .f32) (G : Rows.Idx → EReal)
    (h : ∀ (q : Fin 2048) (r : Fin 16384), r.val = 2048 * t.val + q.val → X (ix1 q) = G (ix1 r)) :
    (cfg0.win 2).cut (grid0.coords t) X = ((cfg0.win 2).blk t).view.read (Elt Ideal) G := by
  obtain ⟨-, -, -, -, e2⟩ := idx_facts t
  have hN : cfg0.N = 8 := N_0
  funext j
  rw [View.read_apply]
  have hq : (j 0).val < 2048 := (j 0).isLt
  have hlt : 2048 * t.val + (j 0).val < 16384 := by have := t.isLt; omega
  have h1 : (cfg0.win 2).xinj (grid0.coords t) j = ix1 (⟨(j 0).val, hq⟩ : Fin 2048) :=
    funext fun a => Fin.ext (by match a with | ⟨0, _⟩ => rfl)
  have h2 : ((cfg0.win 2).blk t).view.emb j = ix1 (⟨2048 * t.val + (j 0).val, hlt⟩ : Fin 16384) :=
    funext fun a => Fin.ext (by
      match a with
      | ⟨0, _⟩ => show win0_2.index t 0 * 2048 + 1 * (j 0).val = 2048 * t.val + (j 0).val; rw [e2]; omega)
  show X ((cfg0.win 2).xinj (grid0.coords t) j) = G (((cfg0.win 2).blk t).view.emb j)
  rw [h1, h2]
  exact h _ _ rfl

end Cert.Bpmll.Kernel

end
-- ==== Proof.KernelBlock.lean ====
/-
  What the kernel body stores, read at one row of a block.

  The body loads a [2048, 1024] block of scores `v0` and of label words `v1`, converts the labels to floats, forms
  `e = exp (v0 · (1 - 2·y))`, and stores, for each of the 2048 rows, the quotient of
  `(∑ₖ y·e) · (∑ₖ (1 - y)·e)` by `(∑ₖ y) · (1024 - ∑ₖ y)`, the sums over the row's 1024 lanes. A lane sum at row `q`
  is the sum over `k` of the summand at `(q, k)`; the three constants are the patterns of 1, 2 and 1024. With binary
  labels on row `q` this is the one-exponential arrangement of `RowLaw`, hence the row's loss.
-/
import proofs.«167753_j24197845745967_2_alg».proof.Proof.RowLaw
import proofs.«167753_j24197845745967_2_alg».proof.Proof.Gen.KernelIdeal.Skeleton
import Idealize.ShloMosaic.Lib.ValueIdx
import Idealize.ShloMosaic.PureOps.Ideal.Laws

noncomputable section

namespace Cert.Bpmll.Block

open Idealize.ShloMosaic Idealize.ShloMosaic.ValueIdx Cert.KernelIdeal Cert.KernelIdeal.Gen Cert.Bpmll

/-- A lane sum of a [2048, 1024] block read at row `q`: the sum over the row's 1024 entries. -/
theorem laneSum_apply (src : FVec Ideal S2048x1024 .f32) (h : S2048x1024.Reduces [1] S2048) (hφ : FKind.Formats .f32)
    (hacc : (0x00000000#32 : BitVec 32) = FKind.add.neutral .f32 hφ) (q : Fin 2048) :
    multiReduction .add [1] S2048 src 0x00000000#32 h hφ hacc (ix1 q) = ∑ k : Fin 1024, src (ix2 q k) := by
  refine (Ideal.multiReduction_add_single src 0x00000000#32 h hφ hacc (ix1 q)).trans ?_
  refine Finset.sum_congr rfl fun k _ => congrArg src ?_
  funext a
  apply Fin.ext
  match a with
  | ⟨0, _⟩ => rfl
  | ⟨1, _⟩ => rfl

/-- The label of a block entry as an extended real. -/
def lab (v1 : Vec Ideal S2048x1024 .i32) (j : S2048x1024.Idx) : EReal := (((v1 j).toInt : ℝ) : EReal)

/-- The labels of a block as floats, and the one exponential of the body. -/
def yv (v1 : Vec Ideal S2048x1024 .i32) : FVec Ideal S2048x1024 .f32 := sitofp .f32 v1
def ev (v0 : Vec Ideal S2048x1024 .f32) (v1 : Vec Ideal S2048x1024 .i32) : FVec Ideal S2048x1024 .f32 :=
  exp (mulf v0 (subf (broadcast S2048x1024 (Scalar.ofBits .f32 0x3F800000#32))
    (mulf (broadcast S2048x1024 (Scalar.ofBits .f32 0x40000000#32)) (yv v1))))

/-- The three summands and the constant, entry by entry. -/
theorem yv_apply (v1 : Vec Ideal S2048x1024 .i32) (j : S2048x1024.Idx) : yv v1 j = lab v1 j := rfl

theorem pos_apply (v0 : Vec Ideal S2048x1024 .f32) (v1 : Vec Ideal S2048x1024 .i32) (j : S2048x1024.Idx) :
    mulf (yv v1) (ev v0 v1) j = lab v1 j * Ideal.exp (v0 j * (1 - 2 * lab v1 j)) := by
  show lab v1 j * Ideal.exp (v0 j * (Ideal.ofBits .f32 0x3F800000#32 - Ideal.ofBits .f32 0x40000000#32 * lab v1 j)) = _
  rw [lit_one, lit_two]

theorem neg_apply (v0 : Vec Ideal S2048x1024 .f32) (v1 : Vec Ideal S2048x1024 .i32) (j : S2048x1024.Idx) :
    mulf (subf (broadcast S2048x1024 (Scalar.ofBits .f32 0x3F800000#32)) (yv v1)) (ev v0 v1) j
      = (1 - lab v1 j) * Ideal.exp (v0 j * (1 - 2 * lab v1 j)) := by
  show (Ideal.ofBits .f32 0x3F800000#32 - lab v1 j)
      * Ideal.exp (v0 j * (Ideal.ofBits .f32 0x3F800000#32 - Ideal.ofBits .f32 0x40000000#32 * lab v1 j)) = _
  rw [lit_one, lit_two]

/-- The body's stored vector, with its subterms named. -/
theorem pay_eq (v0 : Vec Ideal S2048x1024 .f32) (v1 : Vec Ideal S2048x1024 .i32) :
    k0_pay1 (F := Ideal) v0 v1
      = divf
          (mulf (multiReduction .add [1] S2048 (mulf (yv v1) (ev v0 v1)) 0x00000000#32 reduces_S2048x1024_S2048 (.inl rfl) rfl)
            (multiReduction .add [1] S2048 (mulf (subf (broadcast S2048x1024 (Scalar.ofBits .f32 0x3F800000#32)) (yv v1)) (ev v0 v1))
              0x00000000#32 reduces_S2048x1024_S2048 (.inl rfl) rfl))
          (mulf (multiReduction .add [1] S2048 (yv v1) 0x00000000#32 reduces_S2048x1024_S2048 (.inl rfl) rfl)
            (subf (broadcast S2048 (Scalar.ofBits .f32 0x44800000#32))
              (multiReduction .add [1] S2048 (yv v1) 0x00000000#32 reduces_S2048x1024_S2048 (.inl rfl) rfl))) := rfl

/-- THE ROW: with binary labels on row `q` of the block, the body's stored value at `q` is the row's loss. -/
theorem block_row (v0 : Vec Ideal S2048x1024 .f32) (v1 : Vec Ideal S2048x1024 .i32) (q : Fin 2048)
    (hy : ∀ k : Fin 1024, (v1 (ix2 q k)).toInt = 0 ∨ (v1 (ix2 q k)).toInt = 1) :
    k0_pay1 (F := Ideal) v0 v1 (ix1 q) = rowLoss (fun k => v0 (ix2 q k)) (fun k => lab v1 (ix2 q k)) := by
  have hy' : ∀ k : Fin 1024, lab v1 (ix2 q k) = 0 ∨ lab v1 (ix2 q k) = 1 := fun k => by
    unfold lab
    rcases hy k with h | h
    · left; rw [h]; simp
    · right; rw [h]; simp
  have s1 := laneSum_apply (mulf (yv v1) (ev v0 v1)) reduces_S2048x1024_S2048 (.inl rfl) rfl q
  have s2 := laneSum_apply (mulf (subf (broadcast S2048x1024 (Scalar.ofBits .f32 0x3F800000#32)) (yv v1)) (ev v0 v1))
    reduces_S2048x1024_S2048 (.inl rfl) rfl q
  have s3 := laneSum_apply (yv v1) reduces_S2048x1024_S2048 (.inl rfl) rfl q
  rw [pay_eq]
  show Ideal.div
      (multiReduction .add [1] S2048 (mulf (yv v1) (ev v0 v1)) 0x00000000#32 reduces_S2048x1024_S2048 (.inl rfl) rfl (ix1 q)
        * multiReduction .add [1] S2048 (mulf (subf (broadcast S2048x1024 (Scalar.ofBits .f32 0x3F800000#32)) (yv v1)) (ev v0 v1))
            0x00000000#32 reduces_S2048x1024_S2048 (.inl rfl) rfl (ix1 q))
      (multiReduction .add [1] S2048 (yv v1) 0x00000000#32 reduces_S2048x1024_S2048 (.inl rfl) rfl (ix1 q)
        * (Ideal.ofBits .f32 0x44800000#32
          - multiReduction .add [1] S2048 (yv v1) 0x00000000#32 reduces_S2048x1024_S2048 (.inl rfl) rfl (ix1 q))) = _
  rw [s1, s2, s3, lit_1024, Finset.sum_congr rfl fun k _ => pos_apply v0 v1 (ix2 q k),
    Finset.sum_congr rfl fun k _ => neg_apply v0 v1 (ix2 q k), Finset.sum_congr rfl fun k _ => yv_apply v1 (ix2 q k)]
  exact oneExp_row (fun k => v0 (ix2 q k)) (fun k => lab v1 (ix2 q k)) hy'

end Cert.Bpmll.Block

end
-- ==== Proof.KernelValue.lean ====
/-
  The kernel's loss vector, and its mean.

  The grid has 8 points; point `t` fetches rows `2048·t … 2048·t + 2047` of the scores and of the labels (all 1024
  columns) and writes back entries `2048·t … 2048·t + 2047` of the 16384-long loss vector. Row `q` of the block at
  point `t` is row `r = 2048·t + q` of the arrays, so by the block's row law (binary labels) the entry written at
  `r` is the loss of row `r`: each point writes its block of `lossVec`, the 8 blocks cover the vector (row `r` is in
  block `r / 2048`), and the vector after the region is `lossVec` of the two arguments. The host lines after the
  region sum it from zero and divide by 16384.
-/
import proofs.«167753_j24197845745967_2_alg».proof.Proof.BlockReads
import proofs.«167753_j24197845745967_2_alg».proof.Proof.KernelBlock
import proofs.«167753_j24197845745967_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Bpmll.Kernel

open Cert.KernelIdeal Cert.KernelIdeal.Gen Cert.Bpmll

variable (m : (ℓ : Loc nD τ sig) → Buf (Elt Ideal) ℓ) (ρ : Dev nD → PrngReg)

/-- WHAT POINT `t` WRITES BACK is block `t` of the loss vector of the arguments, the labels being binary. -/
theorem flushed_eq (hy : ∀ (c : Dev nD) (i : Scores.Idx), (labels m c i).toInt = 0 ∨ (labels m c i).toInt = 1)
    (c : Dev nD) (t : Fin cfg0.N) :
    (dats m 0 c).flushed 2 t = ((cfg0.win 2).blk t).view.read (Elt Ideal) (lossVec (scores m c) (labels m c)) := by
  show (cfg0.win 2).cut (grid0.coords t) ((dats m 0 c).after 2 t) = _
  rw [after0_2]
  unfold out0_2
  rw [View.canon_unit_zero hz1]
  simp only [View.ld_unit_zero (S := S2048x1024) hz2]
  refine writeBack_eq t _ _ fun q r hr => ?_
  refine (Block.block_row (iblk m c 0 t) (iblk m c 1 t) q fun k => ?_).trans ?_
  · rw [labelBlock_apply m c t q k r hr]
    exact hy c _
  · have hs : (fun k : Fin 1024 => (iblk m c 0 t : Vec Ideal S2048x1024 .f32) (ix2 q k))
        = fun k => scores m c (ix2 r k) :=
      funext fun k => scoreBlock_apply m c t q k r hr
    have hl : (fun k : Fin 1024 => Block.lab (iblk m c 1 t) (ix2 q k))
        = fun k => labelAt (labels m c) r k :=
      funext fun k => by
        unfold Block.lab labelAt
        rw [labelBlock_apply m c t q k r hr]
    rw [hs, hl]
    rfl

/-- An index of the loss vector is in point `t`'s block iff it lies in the block's range. -/
theorem mem_blk (t : Fin cfg0.N) (i : S16384.Idx) :
    i ∈ ((cfg0.win 2).blk t).view.set ↔ ∀ a : Fin 1, win0_2.index t a * S2048.size a ≤ (i a).val ∧ (i a).val < win0_2.index t a * S2048.size a + S2048.size a := by
  show i ∈ ((View.whole main_v0).slice (win0_2.rect t)).set ↔ _
  rw [View.set_slice_whole, Rect.mem_set_unit]
  exact Iff.rfl

/-- THE LOSS VECTOR after the region: the row losses of the two arguments. -/
theorem final (hy : ∀ (c : Dev nD) (i : Scores.Idx), (labels m c i).toInt = 0 ∨ (labels m c i).toInt = 1) (c : Dev nD) :
    (dats m 0 c).arrAt 2 cfg0.N = lossVec (scores m c) (labels m c) :=
  (dats m 0 c).arrAt_eq_of_cover 2 (lossVec (scores m c) (labels m c)) (fun t _ => flushed_eq m hy c t) fun i => by
    have hi : (i 0).val < 16384 := (i 0).isLt
    have hN : cfg0.N = 8 := N_0
    refine ⟨⟨(i 0).val / 2048, by rw [hN]; omega⟩, flush0_2 _, ?_⟩
    rw [mem_blk]
    intro a
    obtain ⟨-, -, -, -, e2⟩ := idx_facts ⟨(i 0).val / 2048, by rw [hN]; omega⟩
    match a with
    | ⟨0, _⟩ =>
      show win0_2.index ⟨(i 0).val / 2048, _⟩ 0 * 2048 ≤ (i 0).val ∧ (i 0).val < win0_2.index ⟨(i 0).val / 2048, _⟩ 0 * 2048 + 2048
      rw [e2]
      show (i 0).val / 2048 * 2048 ≤ (i 0).val ∧ (i 0).val < (i 0).val / 2048 * 2048 + 2048
      omega

end Cert.Bpmll.Kernel

end
-- ==== Proof.KernelRun.lean ====
/-
  The kernel's run, read: the result buffer ends at the mean of the row losses of the two arguments.

  After the region the loss vector's array holds `lossVec` of the arguments (binary labels). The host lines that follow
  read that array, sum it from zero and divide by 16384, and write nothing else the claim mentions; the two argument
  arrays are input windows, which the run leaves as they were.
-/
import proofs.«167753_j24197845745967_2_alg».proof.Proof.KernelValue

noncomputable section

open Idealize.ShloMosaic Idealize.ShloMosaic.TcCoe Idealize.SL.Sem Idealize.ShloMosaic.ValueIdx
open Idealize.ShloMosaic.Pipeline (Dat)

namespace Cert.Bpmll.Kernel

open Cert.KernelIdeal Cert.KernelIdeal.Gen Cert.Bpmll

variable (m : (ℓ : Loc nD τ sig) → Buf (Elt Ideal) ℓ) (ρ : Dev nD → PrngReg)

/-- The result buffer is unscoped and is no window's array: the region leaves it to the host lines. -/
theorem result_mem_rest : main_v2 ∈ Pipeline.restRefs sig (cfgs 0).spec :=
  Pipeline.mem_restRefs_of main_v2 rfl (fun w => by fin_cases w <;> decide)

/-- The host lines after the region leave in the result buffer the mean of what the loss vector's array holds. -/
theorem tail_eq (c : Dev nD) :
    Pipeline.afterTail₀ cfgs (dats m) 0 (V0 m) [hostOps1] c main_v2
      = meanTail Cert.KernelIdeal.Facts₀.reducesTo_S16384_S_d0 Cert.KernelIdeal.Facts₀.h_S_
          ((dats m 0 c).arrAt 2 cfg0.N) := by
  have hw := Pipeline.withArrays_arr spec0 launch0.win.arr_inj c (V0 m c) (fun w => (dats m 0 c).arrAt w cfg0.N) 2
  unfold Pipeline.afterTail₀
  show StableHlo.after hostOps1 _ (Proc.devRef .tc main_v2) = _
  after_results
  show meanTail _ _ (Pipeline.withArrays spec0 c (V0 m c) (fun w => (dats m 0 c).arrAt w cfg0.N)
    (Proc.devRef .tc (Pipeline.arrRef spec0 2))) = _
  rw [hw]

/-- THE RUN: every weakly fair execution terminates with the result buffer at the mean of the row losses of the
    arguments, and the arguments unchanged — the labels being binary. -/
theorem run (hy : ∀ (c : Dev nD) (i : Scores.Idx), (labels m c i).toInt = 0 ∨ (labels m c i).toInt = 1) :
    θ_run defs (onTc (τ := τ) (main (F := Ideal))) ⟨m, fun _ => 0, ρ⟩ fun r => ∀ c : Dev nD,
      r.2.mem ((c.tc : Thread nD τ).loc main_v2)
          = meanTail Cert.KernelIdeal.Facts₀.reducesTo_S16384_S_d0 Cert.KernelIdeal.Facts₀.h_S_
              (lossVec (scores m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 result_mem_rest).trans ((tail_eq m c).trans (congrArg (meanTail _ _) (final m hy c))),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.Bpmll.Kernel

end
-- ==== Proof.lean ====
/-
  The certificate: a one-exponential arrangement of the BPMLL loss against the two-exponential one.

  Both programs take scores `c` (f32[16384, 1024]) and labels `y` (i32[16384, 1024]) and return the mean over the rows
  of `(∑ₖ y·exp(-c)) · (∑ₖ (1 - y)·exp(c)) / ((∑ₖ y) · (∑ₖ (1 - y)))`. The reference computes it as written. The kernel
  computes, block of 2048 rows by block, one exponential `e = exp (c·(1 - 2y))`, masks it by `y` and by `1 - y`, and
  takes the second count as `1024 - ∑ₖ y`. On binary labels `c·(1 - 2y)` is `-c` where `y = 1` and `c` where `y = 0`, the
  term a mask kills is `0` on both sides whatever the exponential is, and `∑ₖ (1 - y) = 1024 - ∑ₖ y`: the two row values
  are one extended real for every score, finite or not (RowLaw). The precondition states that the labels are binary
  (Domain); the finiteness of the scores, which it also states, is not used.

  The kernel's frame is the generated one, at both instances. Its value is read off that frame's run: what each of the
  8 grid points writes back (KernelBlock, BlockReads, KernelValue) and the host lines after the region (KernelRun).
  The reference's frame and value are its generated run, read one operation at a time (RefLoss). The idealization
  rewrote nothing, so there is nothing to preserve.
-/
import proofs.«167753_j24197845745967_2_alg».proof.Defs
import proofs.«167753_j24197845745967_2_alg».proof.Proof.Gen.Kernel
import proofs.«167753_j24197845745967_2_alg».proof.Proof.Gen.Kernel.Frame
import proofs.«167753_j24197845745967_2_alg».proof.Proof.Gen.KernelIdeal
import proofs.«167753_j24197845745967_2_alg».proof.Proof.Gen.KernelIdeal.Frame
import proofs.«167753_j24197845745967_2_alg».proof.Proof.Gen.ReferenceIdeal
import proofs.«167753_j24197845745967_2_alg».proof.Proof.Gen.ReferenceIdeal.Run
import proofs.«167753_j24197845745967_2_alg».proof.Proof.Gen.ReferenceIdeal.Read
import proofs.«167753_j24197845745967_2_alg».proof.Proof.Gen.Pre_finite_inputs
import proofs.«167753_j24197845745967_2_alg».proof.Proof.Domain
import proofs.«167753_j24197845745967_2_alg».proof.Proof.RefLoss
import proofs.«167753_j24197845745967_2_alg».proof.Proof.KernelRun

noncomputable section

namespace Cert.Proof

open Idealize.ShloMosaic Idealize.ShloMosaic.TcCoe Idealize.SL.Sem Cert.Bpmll

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition the labels are binary, so the kernel's result is the mean of the row losses of its
    arguments; the reference's is the mean of the row losses of its own, and the arguments agree. -/
theorem algebraic : Cert.algebraic_KernelIdeal_ReferenceIdeal := by
  intro m ρ m' ρ' hpre hagree
  have hy : ∀ (c : Dev Cert.KernelIdeal.nD) (i : Scores.Idx),
      (Kernel.labels m c i).toInt = 0 ∨ (Kernel.labels m c i).toInt = 1 :=
    fun c i => Domain.labels_binary (F := Ideal) _ _ (hpre c) i
  refine ⟨fun c => meanTail Cert.KernelIdeal.Facts₀.reducesTo_S16384_S_d0 Cert.KernelIdeal.Facts₀.h_S_
      (lossVec (Kernel.scores m c) (Kernel.labels m c)), Kernel.run m ρ hy, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
